-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x16 : Shape := ⟨4, ![8, 512, 512, 16]⟩
abbrev S8x512x512x2 : Shape := ⟨4, ![8, 512, 512, 2]⟩
abbrev S_ : Shape := ⟨0, ![]⟩

class Facts : Prop where
  bcast_S_S8x512x512x16 : S_.BroadcastsInDim S8x512x512x16 (![] : Fin 0 → Fin S8x512x512x16.rank)
  reducesTo_S8x512x512x16_S_d0_1_2_3 : S8x512x512x16.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x512x512x16 .f32) (main_arg1 : FVec F S8x512x512x2 .f32) : IVec S_ 1 :=
  let main_v0 : FVec F S8x512x512x16 .f32 := Host.absf main_arg0
  let main_cst : FVec F S_ .f32 := constant S_ .f32 0x7F800000#32
  let main_v1 : FVec F S8x512x512x16 .f32 := broadcastInDim S8x512x512x16 ![] bcast_S_S8x512x512x16 main_cst
  let main_v2 : IVec S8x512x512x16 1 := cmpf .olt main_v0 main_v1
  let main_c : IVec S_ 1 := constantI S_ 1 1#1
  let main_v3 : IVec S_ 1 := (fun x v => Host.reduce IntOp.andi x v reducesTo_S8x512x512x16_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x512x512x16 : Shape := ⟨4, ![8, 512, 512, 16]⟩
abbrev S8x512x512x2 : Shape := ⟨4, ![8, 512, 512, 2]⟩
abbrev S512 : Shape := ⟨1, ![512]⟩
abbrev S512x512 : Shape := ⟨2, ![512, 512]⟩
abbrev S512x512x1 : Shape := ⟨3, ![512, 512, 1]⟩
abbrev S512x512x2 : Shape := ⟨3, ![512, 512, 2]⟩
abbrev S1x512x512x2 : Shape := ⟨4, ![1, 512, 512, 2]⟩
abbrev S8x512x512x1 : Shape := ⟨4, ![8, 512, 512, 1]⟩
abbrev S8x512x512 : Shape := ⟨3, ![8, 512, 512]⟩
abbrev S_ : Shape := ⟨0, ![]⟩
abbrev S8x262144x16 : Shape := ⟨3, ![8, 262144, 16]⟩
abbrev S8x262144x1 : Shape := ⟨3, ![8, 262144, 1]⟩
abbrev S1 : Shape := ⟨1, ![1]⟩
abbrev S1x1x1 : Shape := ⟨3, ![1, 1, 1]⟩
abbrev S8x262144 : Shape := ⟨2, ![8, 262144]⟩
abbrev S1x8x512x16 : Shape := ⟨4, ![1, 8, 512, 16]⟩
abbrev S1x8x512x1 : Shape := ⟨4, ![1, 8, 512, 1]⟩

abbrev nBuf : Space → Nat
  | .hbm => 183
  | .vmem => 14
  | .smem => 0
  | _ => 0

abbrev hbmTy0_0 (i : Nat) : BufTy := match i % 128 with
  | 0 => ⟨S8x512x512x16, .f32⟩
  | 1 => ⟨S8x512x512x2, .f32⟩
  | 2 => ⟨S512, .i32⟩
  | 3 => ⟨S512, .i32⟩
  | 4 => ⟨S512x512, .i32⟩
  | 5 => ⟨S512x512, .i32⟩
  | 6 => ⟨S512x512x1, .i32⟩
  | 7 => ⟨S512x512x1, .i32⟩
  | 8 => ⟨S512x512x2, .i32⟩
  | 9 => ⟨S512x512x2, .f32⟩
  | 10 => ⟨S1x512x512x2, .f32⟩
  | 11 => ⟨S8x512x512x2, .f32⟩
  | 12 => ⟨S8x512x512x2, .f32⟩
  | 13 => ⟨S8x512x512x1, .f32⟩
  | 14 => ⟨S8x512x512, .f32⟩
  | 15 => ⟨S8x512x512x1, .f32⟩
  | 16 => ⟨S8x512x512, .f32⟩
  | 17 => ⟨S8x512x512, .f32⟩
  | 18 => ⟨S_, .f32⟩
  | 19 => ⟨S_, .i32⟩
  | 20 => ⟨S_, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S8x512x512, .f32⟩
  | 27 => ⟨S_, .f32⟩
  | 28 => ⟨S_, .i32⟩
  | 29 => ⟨S_, .f32⟩
  | 30 => ⟨S8x512x512, .f32⟩
  | 31 => ⟨S8x512x512, .f32⟩
  | 32 => ⟨S_, .f32⟩
  | 33 => ⟨S8x512x512, .f32⟩
  | 34 => ⟨S8x512x512, .f32⟩
  | 35 => ⟨S8x512x512, .f32⟩
  | 36 => ⟨S_, .f32⟩
  | 37 => ⟨S_, .f32⟩
  | 38 => ⟨S_, .f32⟩
  | 39 => ⟨S8x512x512, .f32⟩
  | 40 => ⟨S8x512x512, .f32⟩
  | 41 => ⟨S_, .f32⟩
  | 42 => ⟨S8x512x512, .f32⟩
  | 43 => ⟨S8x512x512, .f32⟩
  | 44 => ⟨S8x512x512x1, .f32⟩
  | 45 => ⟨S8x512x512, .f32⟩
  | 46 => ⟨S_, .f32⟩
  | 47 => ⟨S_, .f32⟩
  | 48 => ⟨S_, .f32⟩
  | 49 => ⟨S8x512x512, .f32⟩
  | 50 => ⟨S8x512x512, .f32⟩
  | 51 => ⟨S_, .f32⟩
  | 52 => ⟨S8x512x512, .f32⟩
  | 53 => ⟨S8x512x512, .f32⟩
  | 54 => ⟨S8x512x512x1, .f32⟩
  | 55 => ⟨S8x512x512, .i32⟩
  | 56 => ⟨S8x512x512, .i32⟩
  | 57 => ⟨S8x262144x16, .f32⟩
  | 58 => ⟨S_, .i32⟩
  | 59 => ⟨S8x512x512, .i32⟩
  | 60 => ⟨S8x512x512, .i32⟩
  | 61 => ⟨S8x512x512, .i32⟩
  | 62 => ⟨S8x262144x1, .i32⟩
  | 63 => ⟨S_, .i32⟩
  | 64 => ⟨S8x262144x1, .i32⟩
  | 65 => ⟨S8x262144x1, .i1⟩
  | 66 => ⟨S_, .i32⟩
  | 67 => ⟨S8x262144x1, .i32⟩
  | 68 => ⟨S8x262144x1, .i32⟩
  | 69 => ⟨S8x262144x1, .i32⟩
  | 70 => ⟨S1, .i32⟩
  | 71 => ⟨S_, .i32⟩
  | 72 => ⟨S8x262144x1, .i32⟩
  | 73 => ⟨S8x262144x1, .i1⟩
  | 74 => ⟨S1x1x1, .i32⟩
  | 75 => ⟨S8x262144x1, .i32⟩
  | 76 => ⟨S8x262144x1, .i1⟩
  | 77 => ⟨S8x262144x1, .i1⟩
  | 78 => ⟨S_, .i1⟩
  | 79 => ⟨S8x262144, .i1⟩
  | 80 => ⟨S8x262144x16, .f32⟩
  | 81 => ⟨S8x262144x16, .i1⟩
  | 82 => ⟨S_, .f32⟩
  | 83 => ⟨S8x262144x16, .f32⟩
  | 84 => ⟨S8x262144x16, .f32⟩
  | 85 => ⟨S8x512x512x16, .f32⟩
  | 86 => ⟨S_, .i32⟩
  | 87 => ⟨S8x512x512, .i32⟩
  | 88 => ⟨S8x512x512, .i32⟩
  | 89 => ⟨S_, .i32⟩
  | 90 => ⟨S8x512x512, .i32⟩
  | 91 => ⟨S8x512x512, .i32⟩
  | 92 => ⟨S8x512x512, .i32⟩
  | 93 => ⟨S8x262144x1, .i32⟩
  | 94 => ⟨S_, .i32⟩
  | 95 => ⟨S8x262144x1, .i32⟩
  | 96 => ⟨S8x262144x1, .i1⟩
  | 97 => ⟨S_, .i32⟩
  | 98 => ⟨S8x262144x1, .i32⟩
  | 99 => ⟨S8x262144x1, .i32⟩
  | 100 => ⟨S8x262144x1, .i32⟩
  | 101 => ⟨S1, .i32⟩
  | 102 => ⟨S_, .i32⟩
  | 103 => ⟨S8x262144x1, .i32⟩
  | 104 => ⟨S8x262144x1, .i1⟩
  | 105 => ⟨S1x1x1, .i32⟩
  | 106 => ⟨S8x262144x1, .i32⟩
  | 107 => ⟨S8x262144x1, .i1⟩
  | 108 => ⟨S8x262144x1, .i1⟩
  | 109 => ⟨S_, .i1⟩
  | 110 => ⟨S8x262144, .i1⟩
  | 111 => ⟨S8x262144x16, .f32⟩
  | 112 => ⟨S8x262144x16, .i1⟩
  | 113 => ⟨S_, .f32⟩
  | 114 => ⟨S8x262144x16, .f32⟩
  | 115 => ⟨S8x262144x16, .f32⟩
  | 116 => ⟨S8x512x512x16, .f32⟩
  | 117 => ⟨S_, .i32⟩
  | 118 => ⟨S8x512x512, .i32⟩
  | 119 => ⟨S8x512x512, .i32⟩
  | 120 => ⟨S_, .i32⟩
  | 121 => ⟨S8x512x512, .i32⟩
  | 122 => ⟨S8x512x512, .i32⟩
  | 123 => ⟨S8x512x512, .i32⟩
  | 124 => ⟨S8x262144x1, .i32⟩
  | 125 => ⟨S_, .i32⟩
  | 126 => ⟨S8x262144x1, .i32⟩
  | 127 => ⟨S8x262144x1, .i1⟩
  | _ => ⟨S8x512x512x16, .f32⟩

abbrev hbmTy0_1 (i : Nat) : BufTy := match i % 128 with
  | 0 => ⟨S_, .i32⟩
  | 1 => ⟨S8x262144x1, .i32⟩
  | 2 => ⟨S8x262144x1, .i32⟩
  | 3 => ⟨S8x262144x1, .i32⟩
  | 4 => ⟨S1, .i32⟩
  | 5 => ⟨S_, .i32⟩
  | 6 => ⟨S8x262144x1, .i32⟩
  | 7 => ⟨S8x262144x1, .i1⟩
  | 8 => ⟨S1x1x1, .i32⟩
  | 9 => ⟨S8x262144x1, .i32⟩
  | 10 => ⟨S8x262144x1, .i1⟩
  | 11 => ⟨S8x262144x1, .i1⟩
  | 12 => ⟨S_, .i1⟩
  | 13 => ⟨S8x262144, .i1⟩
  | 14 => ⟨S8x262144x16, .f32⟩
  | 15 => ⟨S8x262144x16, .i1⟩
  | 16 => ⟨S_, .f32⟩
  | 17 => ⟨S8x262144x16, .f32⟩
  | 18 => ⟨S8x262144x16, .f32⟩
  | 19 => ⟨S8x512x512x16, .f32⟩
  | 20 => ⟨S_, .i32⟩
  | 21 => ⟨S8x512x512, .i32⟩
  | 22 => ⟨S8x512x512, .i32⟩
  | 23 => ⟨S_, .i32⟩
  | 24 => ⟨S8x512x512, .i32⟩
  | 25 => ⟨S8x512x512, .i32⟩
  | 26 => ⟨S_, .i32⟩
  | 27 => ⟨S8x512x512, .i32⟩
  | 28 => ⟨S8x512x512, .i32⟩
  | 29 => ⟨S8x512x512, .i32⟩
  | 30 => ⟨S8x262144x1, .i32⟩
  | 31 => ⟨S_, .i32⟩
  | 32 => ⟨S8x262144x1, .i32⟩
  | 33 => ⟨S8x262144x1, .i1⟩
  | 34 => ⟨S_, .i32⟩
  | 35 => ⟨S8x262144x1, .i32⟩
  | 36 => ⟨S8x262144x1, .i32⟩
  | 37 => ⟨S8x262144x1, .i32⟩
  | 38 => ⟨S1, .i32⟩
  | 39 => ⟨S_, .i32⟩
  | 40 => ⟨S8x262144x1, .i32⟩
  | 41 => ⟨S8x262144x1, .i1⟩
  | 42 => ⟨S1x1x1, .i32⟩
  | 43 => ⟨S8x262144x1, .i32⟩
  | 44 => ⟨S8x262144x1, .i1⟩
  | 45 => ⟨S8x262144x1, .i1⟩
  | 46 => ⟨S_, .i1⟩
  | 47 => ⟨S8x262144, .i1⟩
  | 48 => ⟨S8x262144x16, .f32⟩
  | 49 => ⟨S8x262144x16, .i1⟩
  | 50 => ⟨S_, .f32⟩
  | 51 => ⟨S8x262144x16, .f32⟩
  | 52 => ⟨S8x262144x16, .f32⟩
  | 53 => ⟨S8x512x512x16, .f32⟩
  | 54 => ⟨S8x512x512x16, .f32⟩
  | _ => ⟨S8x512x512x16, .f32⟩

abbrev hbmTy (i : Nat) : BufTy := match i / 128 with
  | 0 => hbmTy0_0 i
  | 1 => hbmTy0_1 i
  | _ => ⟨S8x512x512x16, .f32⟩

abbrev bufTy : (tb : Table) → Fin (tcTables nBuf tb) → BufTy
  | .hbm, ⟨i, _⟩ => hbmTy i
  | .local _ .vmem, ⟨0, _⟩ => ⟨S1x8x512x16, .f32⟩
  | .local _ .vmem, ⟨1, _⟩ => ⟨S1x8x512x16, .f32⟩
  | .local _ .vmem, ⟨2, _⟩ => ⟨S1x8x512x16, .f32⟩
  | .local _ .vmem, ⟨3, _⟩ => ⟨S1x8x512x16, .f32⟩
  | .local _ .vmem, ⟨4, _⟩ => ⟨S1x8x512x16, .f32⟩
  | .local _ .vmem, ⟨5, _⟩ => ⟨S1x8x512x16, .f32⟩
  | .local _ .vmem, ⟨6, _⟩ => ⟨S1x8x512x16, .f32⟩
  | .local _ .vmem, ⟨7, _⟩ => ⟨S1x8x512x16, .f32⟩
  | .local _ .vmem, ⟨8, _⟩ => ⟨S1x8x512x1, .f32⟩
  | .local _ .vmem, ⟨9, _⟩ => ⟨S1x8x512x1, .f32⟩
  | .local _ .vmem, ⟨10, _⟩ => ⟨S1x8x512x1, .f32⟩
  | .local _ .vmem, ⟨11, _⟩ => ⟨S1x8x512x1, .f32⟩
  | .local _ .vmem, ⟨12, _⟩ => ⟨S1x8x512x16, .f32⟩
  | .local _ .vmem, ⟨13, _⟩ => ⟨S1x8x512x16, .f32⟩
  | _, _ => ⟨S8x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_c_2 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_c_3 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_cst : Ref sig .tc := ⟨.hbm, 82, rfl⟩
abbrev main_call4_v14 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_v34 : Ref sig .tc := ⟨.hbm, 87, rfl⟩
abbrev main_v35 : Ref sig .tc := ⟨.hbm, 88, rfl⟩
abbrev main_c_8 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_c_2 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_3 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v40 : Ref sig .tc := ⟨.hbm, 115, rfl⟩
abbrev main_v41 : Ref sig .tc := ⟨.hbm, 116, rfl⟩
abbrev main_c_9 : Ref sig .tc := ⟨.hbm, 117, rfl⟩
abbrev main_v42 : Ref sig .tc := ⟨.hbm, 118, rfl⟩
abbrev main_v43 : Ref sig .tc := ⟨.hbm, 119, rfl⟩
abbrev main_c_10 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_c_2 : Ref sig .tc := ⟨.hbm, 133, rfl⟩
abbrev main_call6_v5 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_c_3 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_cst : Ref sig .tc := ⟨.hbm, 144, rfl⟩
abbrev main_call6_v14 : Ref sig .tc := ⟨.hbm, 145, rfl⟩
abbrev main_v48 : Ref sig .tc := ⟨.hbm, 146, rfl⟩
abbrev main_v49 : Ref sig .tc := ⟨.hbm, 147, rfl⟩
abbrev main_c_11 : Ref sig .tc := ⟨.hbm, 148, rfl⟩
abbrev main_v50 : Ref sig .tc := ⟨.hbm, 149, rfl⟩
abbrev main_v51 : Ref sig .tc := ⟨.hbm, 150, rfl⟩
abbrev main_c_12 : Ref sig .tc := ⟨.hbm, 151, rfl⟩
abbrev main_v52 : Ref sig .tc := ⟨.hbm, 152, rfl⟩
abbrev main_v53 : Ref sig .tc := ⟨.hbm, 153, rfl⟩
abbrev main_c_13 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_call7_c : Ref sig .tc := ⟨.hbm, 159, rfl⟩
abbrev main_call7_v0 : Ref sig .tc := ⟨.hbm, 160, rfl⟩
abbrev main_call7_v1 : Ref sig .tc := ⟨.hbm, 161, rfl⟩
abbrev main_call7_c_0 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_c_1 : Ref sig .tc := ⟨.hbm, 166, rfl⟩
abbrev main_call7_c_2 : Ref sig .tc := ⟨.hbm, 167, rfl⟩
abbrev main_call7_v5 : Ref sig .tc := ⟨.hbm, 168, rfl⟩
abbrev main_call7_v6 : Ref sig .tc := ⟨.hbm, 169, rfl⟩
abbrev main_call7_v7 : Ref sig .tc := ⟨.hbm, 170, rfl⟩
abbrev main_call7_v8 : Ref sig .tc := ⟨.hbm, 171, rfl⟩
abbrev main_call7_v9 : Ref sig .tc := ⟨.hbm, 172, rfl⟩
abbrev main_call7_v10 : Ref sig .tc := ⟨.hbm, 173, rfl⟩
abbrev main_call7_c_3 : Ref sig .tc := ⟨.hbm, 174, rfl⟩
abbrev main_call7_v11 : Ref sig .tc := ⟨.hbm, 175, rfl⟩
abbrev main_call7_v12 : Ref sig .tc := ⟨.hbm, 176, rfl⟩
abbrev main_call7_v13 : Ref sig .tc := ⟨.hbm, 177, rfl⟩
abbrev main_call7_cst : Ref sig .tc := ⟨.hbm, 178, rfl⟩
abbrev main_call7_v14 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S512_S512x512_0 : S512.BroadcastsInDim S512x512 (![0] : Fin 1 → Fin S512x512.rank)
  bcast_S512_S512x512_1 : S512.BroadcastsInDim S512x512 (![1] : Fin 1 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S512x512x2_S1x512x512x2_1_2_3 : S512x512x2.BroadcastsInDim S1x512x512x2 (![1, 2, 3] : Fin 3 → Fin S1x512x512x2.rank)
  bcast_S1x512x512x2_S8x512x512x2_0_1_2_3 : S1x512x512x2.BroadcastsInDim S8x512x512x2 (![0, 1, 2, 3] : Fin 4 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  shapeCasts_S8x512x512x16_S8x262144x16 : S8x512x512x16.ShapeCasts S8x262144x16
  shapeCasts_S8x512x512_S8x262144x1 : S8x512x512.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  h_S_ : 0 < S_.numel
  bcast_S8x262144_S8x262144x16_0_1 : S8x262144.BroadcastsInDim S8x262144x16 (![0, 1] : Fin 2 → Fin S8x262144x16.rank)
  bcast_S_S8x262144x16 : S_.BroadcastsInDim S8x262144x16 (![] : Fin 0 → Fin S8x262144x16.rank)
  shapeCasts_S8x262144x16_S8x512x512x16 : S8x262144x16.ShapeCasts S8x512x512x16
  inb_S1x8x512x16_S1x8x512x16_0_0_0_0 : ∀ a, (![0, 0, 0, 0] : Fin 4 → Nat) a + S1x8x512x16.size a ≤ S1x8x512x16.size a
  h_S1x8x512x16 : 0 < S1x8x512x16.numel
  shapeCasts_S1x8x512x16_S1x8x512x16 : S1x8x512x16.ShapeCasts S1x8x512x16
  inb_S1x8x512x1_S1x8x512x1_0_0_0_0 : ∀ a, (![0, 0, 0, 0] : Fin 4 → Nat) a + S1x8x512x1.size a ≤ S1x8x512x1.size a
  h_S1x8x512x1 : 0 < S1x8x512x1.numel
  shapeCasts_S1x8x512x1_S1x8x512x1 : S1x8x512x1.ShapeCasts S1x8x512x1
  broadcasts_S1x8x512x1_S1x8x512x16 : S1x8x512x1.Broadcasts S1x8x512x16
  gather_S8x262144x16_S8x262144x1_S8x262144x16_2_1_0_0_1_2_1116_wf : GatherDims.WF S8x262144x16 S8x262144x1 S8x262144x16 [2] [1] [0] [1] [0] 2 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x16.size a ≤ S8x512x512x16.size a
  hwx0_0 : ∀ i : grid0.Coords, EltTy.bits .f32 = 32 ∨ (Rect.block (s := S8x512x512x16) S1x8x512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512x16.size a ≤ S8x512x512x16.size a
  hwx0_1 : ∀ i : grid0.Coords, EltTy.bits .f32 = 32 ∨ (Rect.block (s := S8x512x512x16) S1x8x512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x16.size a ≤ S8x512x512x16.size a
  hwx0_2 : ∀ i : grid0.Coords, EltTy.bits .f32 = 32 ∨ (Rect.block (s := S8x512x512x16) S1x8x512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512x16.size a ≤ S8x512x512x16.size a
  hwx0_3 : ∀ i : grid0.Coords, EltTy.bits .f32 = 32 ∨ (Rect.block (s := S8x512x512x16) S1x8x512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512x1.size a ≤ S8x512x512x1.size a
  hwx0_4 : ∀ i : grid0.Coords, EltTy.bits .f32 = 32 ∨ (Rect.block (s := S8x512x512x1) S1x8x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x512x1.size a ≤ S8x512x512x1.size a
  hwx0_5 : ∀ i : grid0.Coords, EltTy.bits .f32 = 32 ∨ (Rect.block (s := S8x512x512x1) S1x8x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x512x16.size a ≤ S8x512x512x16.size a
  hwx0_6 : ∀ i : grid0.Coords, EltTy.bits .f32 = 32 ∨ (Rect.block (s := S8x512x512x16) S1x8x512x16.size (cc0_transform_6 i) (hinb0_6 i)).WholeWords (EltTy.packing .f32)

variable [Facts₀]

def gather_S8x262144x16_S8x262144x1_S8x262144x16_2_1_0_0_1_2_1116 : GatherDims S8x262144x16 S8x262144x1 S8x262144x16 where
  offsetDims := [2]
  collapsedSliceDims := [1]
  operandBatchingDims := [0]
  startIndicesBatchingDims := [0]
  startIndexMap := [1]
  indexVectorDim := 2
  sliceSizes := ![1, 1, 16]
  wf := gather_S8x262144x16_S8x262144x1_S8x262144x16_2_1_0_0_1_2_1116_wf

abbrev win0_0 : Pipeline.Window sig grid0 :=
  Pipeline.Window.ofSpec (Memref.whole main_v33) S1x8x512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x8x512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x8x512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1x8x512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x8x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x8x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x8x512x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x512x16 : Shape := ⟨4, ![8, 512, 512, 16]⟩
abbrev S8x512x512x2 : Shape := ⟨4, ![8, 512, 512, 2]⟩
abbrev S512 : Shape := ⟨1, ![512]⟩
abbrev S512x512 : Shape := ⟨2, ![512, 512]⟩
abbrev S512x512x1 : Shape := ⟨3, ![512, 512, 1]⟩
abbrev S512x512x2 : Shape := ⟨3, ![512, 512, 2]⟩
abbrev S1x512x512x2 : Shape := ⟨4, ![1, 512, 512, 2]⟩
abbrev S8x512x512x1 : Shape := ⟨4, ![8, 512, 512, 1]⟩
abbrev S8x512x512 : Shape := ⟨3, ![8, 512, 512]⟩
abbrev S_ : Shape := ⟨0, ![]⟩
abbrev S8x262144x16 : Shape := ⟨3, ![8, 262144, 16]⟩
abbrev S8x262144x1 : Shape := ⟨3, ![8, 262144, 1]⟩
abbrev S1 : Shape := ⟨1, ![1]⟩
abbrev S1x1x1 : Shape := ⟨3, ![1, 1, 1]⟩
abbrev S8x262144 : Shape := ⟨2, ![8, 262144]⟩

abbrev nBuf : Space → Nat
  | .hbm => 194
  | .vmem => 0
  | .smem => 0
  | _ => 0

abbrev hbmTy0_0 (i : Nat) : BufTy := match i % 128 with
  | 0 => ⟨S8x512x512x16, .f32⟩
  | 1 => ⟨S8x512x512x2, .f32⟩
  | 2 => ⟨S512, .i32⟩
  | 3 => ⟨S512, .i32⟩
  | 4 => ⟨S512x512, .i32⟩
  | 5 => ⟨S512x512, .i32⟩
  | 6 => ⟨S512x512x1, .i32⟩
  | 7 => ⟨S512x512x1, .i32⟩
  | 8 => ⟨S512x512x2, .i32⟩
  | 9 => ⟨S512x512x2, .f32⟩
  | 10 => ⟨S1x512x512x2, .f32⟩
  | 11 => ⟨S8x512x512x2, .f32⟩
  | 12 => ⟨S8x512x512x2, .f32⟩
  | 13 => ⟨S8x512x512x1, .f32⟩
  | 14 => ⟨S8x512x512, .f32⟩
  | 15 => ⟨S8x512x512x1, .f32⟩
  | 16 => ⟨S8x512x512, .f32⟩
  | 17 => ⟨S8x512x512, .f32⟩
  | 18 => ⟨S_, .f32⟩
  | 19 => ⟨S_, .i32⟩
  | 20 => ⟨S_, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S8x512x512, .f32⟩
  | 27 => ⟨S_, .f32⟩
  | 28 => ⟨S_, .i32⟩
  | 29 => ⟨S_, .f32⟩
  | 30 => ⟨S8x512x512, .f32⟩
  | 31 => ⟨S8x512x512, .f32⟩
  | 32 => ⟨S_, .f32⟩
  | 33 => ⟨S8x512x512, .f32⟩
  | 34 => ⟨S8x512x512, .f32⟩
  | 35 => ⟨S8x512x512, .f32⟩
  | 36 => ⟨S_, .f32⟩
  | 37 => ⟨S_, .f32⟩
  | 38 => ⟨S_, .f32⟩
  | 39 => ⟨S8x512x512, .f32⟩
  | 40 => ⟨S8x512x512, .f32⟩
  | 41 => ⟨S_, .f32⟩
  | 42 => ⟨S8x512x512, .f32⟩
  | 43 => ⟨S8x512x512, .f32⟩
  | 44 => ⟨S8x512x512x1, .f32⟩
  | 45 => ⟨S8x512x512, .f32⟩
  | 46 => ⟨S_, .f32⟩
  | 47 => ⟨S_, .f32⟩
  | 48 => ⟨S_, .f32⟩
  | 49 => ⟨S8x512x512, .f32⟩
  | 50 => ⟨S8x512x512, .f32⟩
  | 51 => ⟨S_, .f32⟩
  | 52 => ⟨S8x512x512, .f32⟩
  | 53 => ⟨S8x512x512, .f32⟩
  | 54 => ⟨S8x512x512x1, .f32⟩
  | 55 => ⟨S8x512x512, .i32⟩
  | 56 => ⟨S8x512x512, .i32⟩
  | 57 => ⟨S8x262144x16, .f32⟩
  | 58 => ⟨S_, .i32⟩
  | 59 => ⟨S8x512x512, .i32⟩
  | 60 => ⟨S8x512x512, .i32⟩
  | 61 => ⟨S8x512x512, .i32⟩
  | 62 => ⟨S8x262144x1, .i32⟩
  | 63 => ⟨S_, .i32⟩
  | 64 => ⟨S8x262144x1, .i32⟩
  | 65 => ⟨S8x262144x1, .i1⟩
  | 66 => ⟨S_, .i32⟩
  | 67 => ⟨S8x262144x1, .i32⟩
  | 68 => ⟨S8x262144x1, .i32⟩
  | 69 => ⟨S8x262144x1, .i32⟩
  | 70 => ⟨S1, .i32⟩
  | 71 => ⟨S_, .i32⟩
  | 72 => ⟨S8x262144x1, .i32⟩
  | 73 => ⟨S8x262144x1, .i1⟩
  | 74 => ⟨S1x1x1, .i32⟩
  | 75 => ⟨S8x262144x1, .i32⟩
  | 76 => ⟨S8x262144x1, .i1⟩
  | 77 => ⟨S8x262144x1, .i1⟩
  | 78 => ⟨S_, .i1⟩
  | 79 => ⟨S8x262144, .i1⟩
  | 80 => ⟨S8x262144x16, .f32⟩
  | 81 => ⟨S8x262144x16, .i1⟩
  | 82 => ⟨S_, .f32⟩
  | 83 => ⟨S8x262144x16, .f32⟩
  | 84 => ⟨S8x262144x16, .f32⟩
  | 85 => ⟨S8x512x512x16, .f32⟩
  | 86 => ⟨S_, .i32⟩
  | 87 => ⟨S8x512x512, .i32⟩
  | 88 => ⟨S8x512x512, .i32⟩
  | 89 => ⟨S_, .i32⟩
  | 90 => ⟨S8x512x512, .i32⟩
  | 91 => ⟨S8x512x512, .i32⟩
  | 92 => ⟨S8x512x512, .i32⟩
  | 93 => ⟨S8x262144x1, .i32⟩
  | 94 => ⟨S_, .i32⟩
  | 95 => ⟨S8x262144x1, .i32⟩
  | 96 => ⟨S8x262144x1, .i1⟩
  | 97 => ⟨S_, .i32⟩
  | 98 => ⟨S8x262144x1, .i32⟩
  | 99 => ⟨S8x262144x1, .i32⟩
  | 100 => ⟨S8x262144x1, .i32⟩
  | 101 => ⟨S1, .i32⟩
  | 102 => ⟨S_, .i32⟩
  | 103 => ⟨S8x262144x1, .i32⟩
  | 104 => ⟨S8x262144x1, .i1⟩
  | 105 => ⟨S1x1x1, .i32⟩
  | 106 => ⟨S8x262144x1, .i32⟩
  | 107 => ⟨S8x262144x1, .i1⟩
  | 108 => ⟨S8x262144x1, .i1⟩
  | 109 => ⟨S_, .i1⟩
  | 110 => ⟨S8x262144, .i1⟩
  | 111 => ⟨S8x262144x16, .f32⟩
  | 112 => ⟨S8x262144x16, .i1⟩
  | 113 => ⟨S_, .f32⟩
  | 114 => ⟨S8x262144x16, .f32⟩
  | 115 => ⟨S8x262144x16, .f32⟩
  | 116 => ⟨S8x512x512x16, .f32⟩
  | 117 => ⟨S_, .i32⟩
  | 118 => ⟨S8x512x512, .i32⟩
  | 119 => ⟨S8x512x512, .i32⟩
  | 120 => ⟨S_, .i32⟩
  | 121 => ⟨S8x512x512, .i32⟩
  | 122 => ⟨S8x512x512, .i32⟩
  | 123 => ⟨S8x512x512, .i32⟩
  | 124 => ⟨S8x262144x1, .i32⟩
  | 125 => ⟨S_, .i32⟩
  | 126 => ⟨S8x262144x1, .i32⟩
  | 127 => ⟨S8x262144x1, .i1⟩
  | _ => ⟨S8x512x512x16, .f32⟩

abbrev hbmTy0_1 (i : Nat) : BufTy := match i % 128 with
  | 0 => ⟨S_, .i32⟩
  | 1 => ⟨S8x262144x1, .i32⟩
  | 2 => ⟨S8x262144x1, .i32⟩
  | 3 => ⟨S8x262144x1, .i32⟩
  | 4 => ⟨S1, .i32⟩
  | 5 => ⟨S_, .i32⟩
  | 6 => ⟨S8x262144x1, .i32⟩
  | 7 => ⟨S8x262144x1, .i1⟩
  | 8 => ⟨S1x1x1, .i32⟩
  | 9 => ⟨S8x262144x1, .i32⟩
  | 10 => ⟨S8x262144x1, .i1⟩
  | 11 => ⟨S8x262144x1, .i1⟩
  | 12 => ⟨S_, .i1⟩
  | 13 => ⟨S8x262144, .i1⟩
  | 14 => ⟨S8x262144x16, .f32⟩
  | 15 => ⟨S8x262144x16, .i1⟩
  | 16 => ⟨S_, .f32⟩
  | 17 => ⟨S8x262144x16, .f32⟩
  | 18 => ⟨S8x262144x16, .f32⟩
  | 19 => ⟨S8x512x512x16, .f32⟩
  | 20 => ⟨S_, .i32⟩
  | 21 => ⟨S8x512x512, .i32⟩
  | 22 => ⟨S8x512x512, .i32⟩
  | 23 => ⟨S_, .i32⟩
  | 24 => ⟨S8x512x512, .i32⟩
  | 25 => ⟨S8x512x512, .i32⟩
  | 26 => ⟨S_, .i32⟩
  | 27 => ⟨S8x512x512, .i32⟩
  | 28 => ⟨S8x512x512, .i32⟩
  | 29 => ⟨S8x512x512, .i32⟩
  | 30 => ⟨S8x262144x1, .i32⟩
  | 31 => ⟨S_, .i32⟩
  | 32 => ⟨S8x262144x1, .i32⟩
  | 33 => ⟨S8x262144x1, .i1⟩
  | 34 => ⟨S_, .i32⟩
  | 35 => ⟨S8x262144x1, .i32⟩
  | 36 => ⟨S8x262144x1, .i32⟩
  | 37 => ⟨S8x262144x1, .i32⟩
  | 38 => ⟨S1, .i32⟩
  | 39 => ⟨S_, .i32⟩
  | 40 => ⟨S8x262144x1, .i32⟩
  | 41 => ⟨S8x262144x1, .i1⟩
  | 42 => ⟨S1x1x1, .i32⟩
  | 43 => ⟨S8x262144x1, .i32⟩
  | 44 => ⟨S8x262144x1, .i1⟩
  | 45 => ⟨S8x262144x1, .i1⟩
  | 46 => ⟨S_, .i1⟩
  | 47 => ⟨S8x262144, .i1⟩
  | 48 => ⟨S8x262144x16, .f32⟩
  | 49 => ⟨S8x262144x16, .i1⟩
  | 50 => ⟨S_, .f32⟩
  | 51 => ⟨S8x262144x16, .f32⟩
  | 52 => ⟨S8x262144x16, .f32⟩
  | 53 => ⟨S8x512x512x16, .f32⟩
  | 54 => ⟨S8x512x512x16, .f32⟩
  | 55 => ⟨S8x512x512x16, .f32⟩
  | 56 => ⟨S8x512x512x16, .f32⟩
  | 57 => ⟨S8x512x512x16, .f32⟩
  | 58 => ⟨S8x512x512x16, .f32⟩
  | 59 => ⟨S8x512x512x16, .f32⟩
  | 60 => ⟨S8x512x512x16, .f32⟩
  | 61 => ⟨S8x512x512x16, .f32⟩
  | 62 => ⟨S8x512x512x16, .f32⟩
  | 63 => ⟨S8x512x512x16, .f32⟩
  | 64 => ⟨S8x512x512x16, .f32⟩
  | 65 => ⟨S8x512x512x16, .f32⟩
  | _ => ⟨S8x512x512x16, .f32⟩

abbrev hbmTy (i : Nat) : BufTy := match i / 128 with
  | 0 => hbmTy0_0 i
  | 1 => hbmTy0_1 i
  | _ => ⟨S8x512x512x16, .f32⟩

abbrev bufTy : (tb : Table) → Fin (tcTables nBuf tb) → BufTy
  | .hbm, ⟨i, _⟩ => hbmTy i
  | _, _ => ⟨S8x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_c_2 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_c_3 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_cst : Ref sig .tc := ⟨.hbm, 82, rfl⟩
abbrev main_call4_v14 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_v34 : Ref sig .tc := ⟨.hbm, 87, rfl⟩
abbrev main_v35 : Ref sig .tc := ⟨.hbm, 88, rfl⟩
abbrev main_c_8 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_c_2 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_3 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v40 : Ref sig .tc := ⟨.hbm, 115, rfl⟩
abbrev main_v41 : Ref sig .tc := ⟨.hbm, 116, rfl⟩
abbrev main_c_9 : Ref sig .tc := ⟨.hbm, 117, rfl⟩
abbrev main_v42 : Ref sig .tc := ⟨.hbm, 118, rfl⟩
abbrev main_v43 : Ref sig .tc := ⟨.hbm, 119, rfl⟩
abbrev main_c_10 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_c_2 : Ref sig .tc := ⟨.hbm, 133, rfl⟩
abbrev main_call6_v5 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_c_3 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_cst : Ref sig .tc := ⟨.hbm, 144, rfl⟩
abbrev main_call6_v14 : Ref sig .tc := ⟨.hbm, 145, rfl⟩
abbrev main_v48 : Ref sig .tc := ⟨.hbm, 146, rfl⟩
abbrev main_v49 : Ref sig .tc := ⟨.hbm, 147, rfl⟩
abbrev main_c_11 : Ref sig .tc := ⟨.hbm, 148, rfl⟩
abbrev main_v50 : Ref sig .tc := ⟨.hbm, 149, rfl⟩
abbrev main_v51 : Ref sig .tc := ⟨.hbm, 150, rfl⟩
abbrev main_c_12 : Ref sig .tc := ⟨.hbm, 151, rfl⟩
abbrev main_v52 : Ref sig .tc := ⟨.hbm, 152, rfl⟩
abbrev main_v53 : Ref sig .tc := ⟨.hbm, 153, rfl⟩
abbrev main_c_13 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_call7_c : Ref sig .tc := ⟨.hbm, 159, rfl⟩
abbrev main_call7_v0 : Ref sig .tc := ⟨.hbm, 160, rfl⟩
abbrev main_call7_v1 : Ref sig .tc := ⟨.hbm, 161, rfl⟩
abbrev main_call7_c_0 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_c_1 : Ref sig .tc := ⟨.hbm, 166, rfl⟩
abbrev main_call7_c_2 : Ref sig .tc := ⟨.hbm, 167, rfl⟩
abbrev main_call7_v5 : Ref sig .tc := ⟨.hbm, 168, rfl⟩
abbrev main_call7_v6 : Ref sig .tc := ⟨.hbm, 169, rfl⟩
abbrev main_call7_v7 : Ref sig .tc := ⟨.hbm, 170, rfl⟩
abbrev main_call7_v8 : Ref sig .tc := ⟨.hbm, 171, rfl⟩
abbrev main_call7_v9 : Ref sig .tc := ⟨.hbm, 172, rfl⟩
abbrev main_call7_v10 : Ref sig .tc := ⟨.hbm, 173, rfl⟩
abbrev main_call7_c_3 : Ref sig .tc := ⟨.hbm, 174, rfl⟩
abbrev main_call7_v11 : Ref sig .tc := ⟨.hbm, 175, rfl⟩
abbrev main_call7_v12 : Ref sig .tc := ⟨.hbm, 176, rfl⟩
abbrev main_call7_v13 : Ref sig .tc := ⟨.hbm, 177, rfl⟩
abbrev main_call7_cst : Ref sig .tc := ⟨.hbm, 178, rfl⟩
abbrev main_call7_v14 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  bcast_S512_S512x512_1 : S512.BroadcastsInDim S512x512 (![1] : Fin 1 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S512x512x2_S1x512x512x2_1_2_3 : S512x512x2.BroadcastsInDim S1x512x512x2 (![1, 2, 3] : Fin 3 → Fin S1x512x512x2.rank)
  bcast_S1x512x512x2_S8x512x512x2_0_1_2_3 : S1x512x512x2.BroadcastsInDim S8x512x512x2 (![0, 1, 2, 3] : Fin 4 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  shapeCasts_S8x512x512x16_S8x262144x16 : S8x512x512x16.ShapeCasts S8x262144x16
  shapeCasts_S8x512x512_S8x262144x1 : S8x512x512.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  h_S_ : 0 < S_.numel
  bcast_S8x262144_S8x262144x16_0_1 : S8x262144.BroadcastsInDim S8x262144x16 (![0, 1] : Fin 2 → Fin S8x262144x16.rank)
  bcast_S_S8x262144x16 : S_.BroadcastsInDim S8x262144x16 (![] : Fin 0 → Fin S8x262144x16.rank)
  shapeCasts_S8x262144x16_S8x512x512x16 : S8x262144x16.ShapeCasts S8x512x512x16
  bcast_S8x512x512x1_S8x512x512x16_0_1_2_3 : S8x512x512x1.BroadcastsInDim S8x512x512x16 (![0, 1, 2, 3] : Fin 4 → Fin S8x512x512x16.rank)
  gather_S8x262144x16_S8x262144x1_S8x262144x16_2_1_0_0_1_2_1116_wf : GatherDims.WF S8x262144x16 S8x262144x1 S8x262144x16 [2] [1] [0] [1] [0] 2 ![1, 1, 16]

variable [Facts₀]

def gather_S8x262144x16_S8x262144x1_S8x262144x16_2_1_0_0_1_2_1116 : GatherDims S8x262144x16 S8x262144x1 S8x262144x16 where
  offsetDims := [2]
  collapsedSliceDims := [1]
  operandBatchingDims := [0]
  startIndicesBatchingDims := [0]
  startIndexMap := [1]
  indexVectorDim := 2
  sliceSizes := ![1, 1, 16]
  wf := gather_S8x262144x16_S8x262144x1_S8x262144x16_2_1_0_0_1_2_1116_wf

class Facts : Prop extends Facts₀ where

variable [Facts]
-- ==== Proof.Bilinear.lean ====
/-
  Bilinear blending of four gathered corner images by two per-pixel weight maps.

  An image entry has an index (b, y, x, ch) over [8, 512, 512, 16]; a weight map has one entry per pixel,
  (b, y, x, 0) over [8, 512, 512, 1]. With tl, tr, bl, br the four corner images and ax, ay the horizontal and the
  vertical weight at the entry's pixel, the blended entry is

      top = tl + ax · (tr − tl),   bot = bl + ax · (br − bl),   out = top + ay · (bot − top),

  every operation the float instance's own and in exactly this grouping (so `top` occurs twice in the term).
  Nothing here depends on which float instance the operations are read at: the two programs compared compute this
  very term, so no law of arithmetic is needed to join them.
-/
import Idealize.ShloMosaic.PureOps.Vector

namespace Cert.Bilinear

open Idealize.ShloMosaic

/-- The shape of an image: batch, row, column, channel. -/
abbrev Img : Shape := ⟨4, ![8, 512, 512, 16]⟩
/-- The shape of a weight map: batch, row, column, and one channel. -/
abbrev Wgt : Shape := ⟨4, ![8, 512, 512, 1]⟩

/-- The weight entry that an image entry uses: its own batch, row and column, and the weight map's only channel. -/
def wcol (i : Img.Idx) : Wgt.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩

variable {F : FTy → Type} [FloatOps F]

/-- One blended entry from the four corner entries and the two weights: `top + ay · (bot − top)` with
    `top = tl + ax · (tr − tl)` and `bot = bl + ax · (br − bl)`. -/
def mix (tl tr bl br ax ay : F .f32) : F .f32 :=
  FloatOps.addf (FloatOps.addf tl (FloatOps.mulf ax (FloatOps.subf tr tl)))
    (FloatOps.mulf ay (FloatOps.subf (FloatOps.addf bl (FloatOps.mulf ax (FloatOps.subf br bl)))
      (FloatOps.addf tl (FloatOps.mulf ax (FloatOps.subf tr tl)))))

/-- The blended image: entry by entry `mix` of the corner images at that entry and of the weight maps at its pixel. -/
def blend (tl tr bl br : Img.Idx → F .f32) (ax ay : Wgt.Idx → F .f32) : Img.Idx → F .f32 :=
  fun i => mix (tl i) (tr i) (bl i) (br i) (ax (wcol i)) (ay (wcol i))

end Cert.Bilinear
-- ==== Proof.BlockBlend.lean ====
/-
  The kernel's result array is the bilinear blend of the six arrays its region is launched on.

  The region runs over a grid of 8 × 64 points; at point t = 64·b + h every one of its seven windows has block index
  (b, h, 0, 0), a block being one batch entry and eight consecutive rows: [1, 8, 512, 16] entries of an image, or
  [1, 8, 512, 1] entries of a weight map. The body leaves in the output block, entry by entry, `Bilinear.mix` of the
  four corner blocks at that entry and of the two weight blocks at the entry's pixel. A block entry (0, r, x, ch) of point t
  sits in the array at (b, 8·h + r, x, ch), and its pixel's weight entry at (b, 8·h + r, x, 0): the same place in every
  image, and the weight place that `Bilinear.wcol` names. So what point t writes back is block t of ONE whole-array
  function, `Bilinear.blend` of the six arrays; the blocks cover the array — entry (b, y, x, ch) lies in the block of
  point 64·b + y / 8 —, hence the array ends holding that function.
-/
import proofs.«162366_j35158602285814_2_alg».proof.Proof.Gen.KernelIdeal.Value
import proofs.«162366_j35158602285814_2_alg».proof.Proof.Bilinear
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Cert.Bilinear (mix blend wcol)

variable {F : FTy → Type} [FloatOps F]
variable (m : (ℓ : Loc nD τ sig) → Buf (Elt F) ℓ) (ρ : Dev nD → PrngReg)

/-- The body loads and stores whole blocks: the rectangle it goes through starts at offset zero on every axis. -/
theorem zero_offsets : (![0, 0, 0, 0] : Fin 4 → Nat) = fun _ => 0 := funext fun a => by fin_cases a <;> rfl

/-- What the body leaves in the output block, entry by entry: `mix` of the four corner blocks at the entry and of the
    two weight blocks at the entry's pixel (the weight blocks' one channel). -/
theorem out_apply (x0 x1 x2 x3 : Vec F S1x8x512x16 .f32) (x4 x5 : Vec F S1x8x512x1 .f32) (y : S1x8x512x16.Idx) :
    out0_6 x0 x1 x2 x3 x4 x5 y
      = mix (x0 (ix6_0 y)) (x1 (ix6_0 y)) (x2 (ix6_0 y)) (x3 (ix6_0 y)) (x4 (ix6_1 y)) (x5 (ix6_1 y)) := by
  unfold out0_6
  rw [canon6_eq]
  simp only [View.ld_unit_zero (S := S1x8x512x16) zero_offsets, View.ld_unit_zero (S := S1x8x512x1) zero_offsets]
  rfl

/-- The index maps over the grid: at point t every window's block index is (t / 64, t % 64, 0, 0). -/
theorem index_facts : ∀ t : Fin cfg0.N,
    (win0_6.index t (0 : Fin 4) = t.val / 64 ∧ win0_6.index t (1 : Fin 4) = t.val % 64 ∧ win0_6.index t (2 : Fin 4) = 0 ∧ win0_6.index t (3 : Fin 4) = 0)
    ∧ (win0_0.index t (0 : Fin 4) = t.val / 64 ∧ win0_0.index t (1 : Fin 4) = t.val % 64 ∧ win0_0.index t (2 : Fin 4) = 0 ∧ win0_0.index t (3 : Fin 4) = 0)
    ∧ (win0_1.index t (0 : Fin 4) = t.val / 64 ∧ win0_1.index t (1 : Fin 4) = t.val % 64 ∧ win0_1.index t (2 : Fin 4) = 0 ∧ win0_1.index t (3 : Fin 4) = 0)
    ∧ (win0_2.index t (0 : Fin 4) = t.val / 64 ∧ win0_2.index t (1 : Fin 4) = t.val % 64 ∧ win0_2.index t (2 : Fin 4) = 0 ∧ win0_2.index t (3 : Fin 4) = 0)
    ∧ (win0_3.index t (0 : Fin 4) = t.val / 64 ∧ win0_3.index t (1 : Fin 4) = t.val % 64 ∧ win0_3.index t (2 : Fin 4) = 0 ∧ win0_3.index t (3 : Fin 4) = 0)
    ∧ (win0_4.index t (0 : Fin 4) = t.val / 64 ∧ win0_4.index t (1 : Fin 4) = t.val % 64 ∧ win0_4.index t (2 : Fin 4) = 0 ∧ win0_4.index t (3 : Fin 4) = 0)
    ∧ (win0_5.index t (0 : Fin 4) = t.val / 64 ∧ win0_5.index t (1 : Fin 4) = t.val % 64 ∧ win0_5.index t (2 : Fin 4) = 0 ∧ win0_5.index t (3 : Fin 4) = 0) :=
  (by decide +kernel : ∀ t : Fin grid0.N, _)

/-- An image block entry of window 0 at point `t` sits in its array where the output block's entry sits in the result array. -/
theorem emb0 (t : Fin cfg0.N) (j : S1x8x512x16.Idx) :
    ((cfg0.win 0).blk t).view.emb (ix6_0 j) = ((cfg0.win 6).blk t).view.emb j := by
  obtain ⟨⟨o0, o1, o2, o3⟩, ⟨a0, a1, a2, a3⟩, -, -, -, -, -⟩ := index_facts t
  have hj0 : (j 0).val < 1 := (j 0).isLt
  have hj1 : (j 1).val < 8 := (j 1).isLt
  have hj2 : (j 2).val < 512 := (j 2).isLt
  have hj3 : (j 3).val < 16 := (j 3).isLt
  funext a; apply Fin.ext
  match a with
    | ⟨0, _⟩ => show win0_0.index t (0 : Fin 4) * 1 + 1 * 0 = win0_6.index t (0 : Fin 4) * 1 + 1 * (j 0).val; omega
    | ⟨1, _⟩ => show win0_0.index t (1 : Fin 4) * 8 + 1 * (j 1).val = win0_6.index t (1 : Fin 4) * 8 + 1 * (j 1).val; omega
    | ⟨2, _⟩ => show win0_0.index t (2 : Fin 4) * 512 + 1 * (j 2).val = win0_6.index t (2 : Fin 4) * 512 + 1 * (j 2).val; omega
    | ⟨3, _⟩ => show win0_0.index t (3 : Fin 4) * 16 + 1 * (j 3).val = win0_6.index t (3 : Fin 4) * 16 + 1 * (j 3).val; omega

/-- An image block entry of window 1 at point `t` sits in its array where the output block's entry sits in the result array. -/
theorem emb1 (t : Fin cfg0.N) (j : S1x8x512x16.Idx) :
    ((cfg0.win 1).blk t).view.emb (ix6_0 j) = ((cfg0.win 6).blk t).view.emb j := by
  obtain ⟨⟨o0, o1, o2, o3⟩, -, ⟨a0, a1, a2, a3⟩, -, -, -, -⟩ := index_facts t
  have hj0 : (j 0).val < 1 := (j 0).isLt
  have hj1 : (j 1).val < 8 := (j 1).isLt
  have hj2 : (j 2).val < 512 := (j 2).isLt
  have hj3 : (j 3).val < 16 := (j 3).isLt
  funext a; apply Fin.ext
  match a with
    | ⟨0, _⟩ => show win0_1.index t (0 : Fin 4) * 1 + 1 * 0 = win0_6.index t (0 : Fin 4) * 1 + 1 * (j 0).val; omega
    | ⟨1, _⟩ => show win0_1.index t (1 : Fin 4) * 8 + 1 * (j 1).val = win0_6.index t (1 : Fin 4) * 8 + 1 * (j 1).val; omega
    | ⟨2, _⟩ => show win0_1.index t (2 : Fin 4) * 512 + 1 * (j 2).val = win0_6.index t (2 : Fin 4) * 512 + 1 * (j 2).val; omega
    | ⟨3, _⟩ => show win0_1.index t (3 : Fin 4) * 16 + 1 * (j 3).val = win0_6.index t (3 : Fin 4) * 16 + 1 * (j 3).val; omega

/-- An image block entry of window 2 at point `t` sits in its array where the output block's entry sits in the result array. -/
theorem emb2 (t : Fin cfg0.N) (j : S1x8x512x16.Idx) :
    ((cfg0.win 2).blk t).view.emb (ix6_0 j) = ((cfg0.win 6).blk t).view.emb j := by
  obtain ⟨⟨o0, o1, o2, o3⟩, -, -, ⟨a0, a1, a2, a3⟩, -, -, -⟩ := index_facts t
  have hj0 : (j 0).val < 1 := (j 0).isLt
  have hj1 : (j 1).val < 8 := (j 1).isLt
  have hj2 : (j 2).val < 512 := (j 2).isLt
  have hj3 : (j 3).val < 16 := (j 3).isLt
  funext a; apply Fin.ext
  match a with
    | ⟨0, _⟩ => show win0_2.index t (0 : Fin 4) * 1 + 1 * 0 = win0_6.index t (0 : Fin 4) * 1 + 1 * (j 0).val; omega
    | ⟨1, _⟩ => show win0_2.index t (1 : Fin 4) * 8 + 1 * (j 1).val = win0_6.index t (1 : Fin 4) * 8 + 1 * (j 1).val; omega
    | ⟨2, _⟩ => show win0_2.index t (2 : Fin 4) * 512 + 1 * (j 2).val = win0_6.index t (2 : Fin 4) * 512 + 1 * (j 2).val; omega
    | ⟨3, _⟩ => show win0_2.index t (3 : Fin 4) * 16 + 1 * (j 3).val = win0_6.index t (3 : Fin 4) * 16 + 1 * (j 3).val; omega

/-- An image block entry of window 3 at point `t` sits in its array where the output block's entry sits in the result array. -/
theorem emb3 (t : Fin cfg0.N) (j : S1x8x512x16.Idx) :
    ((cfg0.win 3).blk t).view.emb (ix6_0 j) = ((cfg0.win 6).blk t).view.emb j := by
  obtain ⟨⟨o0, o1, o2, o3⟩, -, -, -, ⟨a0, a1, a2, a3⟩, -, -⟩ := index_facts t
  have hj0 : (j 0).val < 1 := (j 0).isLt
  have hj1 : (j 1).val < 8 := (j 1).isLt
  have hj2 : (j 2).val < 512 := (j 2).isLt
  have hj3 : (j 3).val < 16 := (j 3).isLt
  funext a; apply Fin.ext
  match a with
    | ⟨0, _⟩ => show win0_3.index t (0 : Fin 4) * 1 + 1 * 0 = win0_6.index t (0 : Fin 4) * 1 + 1 * (j 0).val; omega
    | ⟨1, _⟩ => show win0_3.index t (1 : Fin 4) * 8 + 1 * (j 1).val = win0_6.index t (1 : Fin 4) * 8 + 1 * (j 1).val; omega
    | ⟨2, _⟩ => show win0_3.index t (2 : Fin 4) * 512 + 1 * (j 2).val = win0_6.index t (2 : Fin 4) * 512 + 1 * (j 2).val; omega
    | ⟨3, _⟩ => show win0_3.index t (3 : Fin 4) * 16 + 1 * (j 3).val = win0_6.index t (3 : Fin 4) * 16 + 1 * (j 3).val; omega

/-- A weight block entry of window 4 at point `t` sits in its array at the pixel of the output block's entry, channel 0. -/
theorem emb4 (t : Fin cfg0.N) (j : S1x8x512x16.Idx) :
    ((cfg0.win 4).blk t).view.emb (ix6_1 j) = wcol (((cfg0.win 6).blk t).view.emb j) := by
  obtain ⟨⟨o0, o1, o2, o3⟩, -, -, -, -, ⟨a0, a1, a2, a3⟩, -⟩ := index_facts t
  have hj0 : (j 0).val < 1 := (j 0).isLt
  have hj1 : (j 1).val < 8 := (j 1).isLt
  have hj2 : (j 2).val < 512 := (j 2).isLt
  have hj3 : (j 3).val < 16 := (j 3).isLt
  funext a; apply Fin.ext
  match a with
    | ⟨0, _⟩ => show win0_4.index t (0 : Fin 4) * 1 + 1 * 0 = win0_6.index t (0 : Fin 4) * 1 + 1 * (j 0).val; omega
    | ⟨1, _⟩ => show win0_4.index t (1 : Fin 4) * 8 + 1 * (j 1).val = win0_6.index t (1 : Fin 4) * 8 + 1 * (j 1).val; omega
    | ⟨2, _⟩ => show win0_4.index t (2 : Fin 4) * 512 + 1 * (j 2).val = win0_6.index t (2 : Fin 4) * 512 + 1 * (j 2).val; omega
    | ⟨3, _⟩ => show win0_4.index t (3 : Fin 4) * 1 + 1 * 0 = 0; omega

/-- A weight block entry of window 5 at point `t` sits in its array at the pixel of the output block's entry, channel 0. -/
theorem emb5 (t : Fin cfg0.N) (j : S1x8x512x16.Idx) :
    ((cfg0.win 5).blk t).view.emb (ix6_1 j) = wcol (((cfg0.win 6).blk t).view.emb j) := by
  obtain ⟨⟨o0, o1, o2, o3⟩, -, -, -, -, -, ⟨a0, a1, a2, a3⟩⟩ := index_facts t
  have hj0 : (j 0).val < 1 := (j 0).isLt
  have hj1 : (j 1).val < 8 := (j 1).isLt
  have hj2 : (j 2).val < 512 := (j 2).isLt
  have hj3 : (j 3).val < 16 := (j 3).isLt
  funext a; apply Fin.ext
  match a with
    | ⟨0, _⟩ => show win0_5.index t (0 : Fin 4) * 1 + 1 * 0 = win0_6.index t (0 : Fin 4) * 1 + 1 * (j 0).val; omega
    | ⟨1, _⟩ => show win0_5.index t (1 : Fin 4) * 8 + 1 * (j 1).val = win0_6.index t (1 : Fin 4) * 8 + 1 * (j 1).val; omega
    | ⟨2, _⟩ => show win0_5.index t (2 : Fin 4) * 512 + 1 * (j 2).val = win0_6.index t (2 : Fin 4) * 512 + 1 * (j 2).val; omega
    | ⟨3, _⟩ => show win0_5.index t (3 : Fin 4) * 1 + 1 * 0 = 0; omega

/-- Window 0's block at point `t` of ANY contents `A` of its array, read at the entry the body uses. -/
theorem blk0_read (t : Fin cfg0.N) (j : S1x8x512x16.Idx) (A : S8x512x512x16.Idx → Elt F .f32) :
    ((cfg0.win 0).blk t).view.read (Elt F) A (ix6_0 j) = A (((cfg0.win 6).blk t).view.emb j) := by
  rw [View.read_apply, emb0 t j]
  rfl

/-- Window 1's block at point `t` of ANY contents `A` of its array, read at the entry the body uses. -/
theorem blk1_read (t : Fin cfg0.N) (j : S1x8x512x16.Idx) (A : S8x512x512x16.Idx → Elt F .f32) :
    ((cfg0.win 1).blk t).view.read (Elt F) A (ix6_0 j) = A (((cfg0.win 6).blk t).view.emb j) := by
  rw [View.read_apply, emb1 t j]
  rfl

/-- Window 2's block at point `t` of ANY contents `A` of its array, read at the entry the body uses. -/
theorem blk2_read (t : Fin cfg0.N) (j : S1x8x512x16.Idx) (A : S8x512x512x16.Idx → Elt F .f32) :
    ((cfg0.win 2).blk t).view.read (Elt F) A (ix6_0 j) = A (((cfg0.win 6).blk t).view.emb j) := by
  rw [View.read_apply, emb2 t j]
  rfl

/-- Window 3's block at point `t` of ANY contents `A` of its array, read at the entry the body uses. -/
theorem blk3_read (t : Fin cfg0.N) (j : S1x8x512x16.Idx) (A : S8x512x512x16.Idx → Elt F .f32) :
    ((cfg0.win 3).blk t).view.read (Elt F) A (ix6_0 j) = A (((cfg0.win 6).blk t).view.emb j) := by
  rw [View.read_apply, emb3 t j]
  rfl

/-- Window 4's block at point `t` of ANY contents `A` of its array, read at the entry the body uses. -/
theorem blk4_read (t : Fin cfg0.N) (j : S1x8x512x16.Idx) (A : S8x512x512x1.Idx → Elt F .f32) :
    ((cfg0.win 4).blk t).view.read (Elt F) A (ix6_1 j) = A (wcol (((cfg0.win 6).blk t).view.emb j)) := by
  rw [View.read_apply, emb4 t j]
  rfl

/-- Window 5's block at point `t` of ANY contents `A` of its array, read at the entry the body uses. -/
theorem blk5_read (t : Fin cfg0.N) (j : S1x8x512x16.Idx) (A : S8x512x512x1.Idx → Elt F .f32) :
    ((cfg0.win 5).blk t).view.read (Elt F) A (ix6_1 j) = A (wcol (((cfg0.win 6).blk t).view.emb j)) := by
  rw [View.read_apply, emb5 t j]
  rfl

/-- The output window's block at point `t` of ANY contents `G` of the result array. -/
theorem blk6_read (t : Fin cfg0.N) (j : S1x8x512x16.Idx) (G : S8x512x512x16.Idx → Elt F .f32) :
    ((cfg0.win 6).blk t).view.read (Elt F) G j = G (((cfg0.win 6).blk t).view.emb j) := by
  rw [View.read_apply]
  rfl

/-- Window 0's block at point `t`, read at the entry the body uses, is its array there. -/
theorem read0 (c : Dev nD) (t : Fin cfg0.N) (j : S1x8x512x16.Idx) :
    iblk m c 0 t (ix6_0 j) = V m c main_v33 (((cfg0.win 6).blk t).view.emb j) :=
  blk0_read t j (V m c main_v33)

/-- Window 1's block at point `t`, read at the entry the body uses, is its array there. -/
theorem read1 (c : Dev nD) (t : Fin cfg0.N) (j : S1x8x512x16.Idx) :
    iblk m c 1 t (ix6_0 j) = V m c main_v41 (((cfg0.win 6).blk t).view.emb j) :=
  blk1_read t j (V m c main_v41)

/-- Window 2's block at point `t`, read at the entry the body uses, is its array there. -/
theorem read2 (c : Dev nD) (t : Fin cfg0.N) (j : S1x8x512x16.Idx) :
    iblk m c 2 t (ix6_0 j) = V m c main_v49 (((cfg0.win 6).blk t).view.emb j) :=
  blk2_read t j (V m c main_v49)

/-- Window 3's block at point `t`, read at the entry the body uses, is its array there. -/
theorem read3 (c : Dev nD) (t : Fin cfg0.N) (j : S1x8x512x16.Idx) :
    iblk m c 3 t (ix6_0 j) = V m c main_v59 (((cfg0.win 6).blk t).view.emb j) :=
  blk3_read t j (V m c main_v59)

/-- Window 4's block at point `t`, read at the entry the body uses, is its array there. -/
theorem read4 (c : Dev nD) (t : Fin cfg0.N) (j : S1x8x512x16.Idx) :
    iblk m c 4 t (ix6_1 j) = V m c main_v24 (wcol (((cfg0.win 6).blk t).view.emb j)) :=
  blk4_read t j (V m c main_v24)

/-- Window 5's block at point `t`, read at the entry the body uses, is its array there. -/
theorem read5 (c : Dev nD) (t : Fin cfg0.N) (j : S1x8x512x16.Idx) :
    iblk m c 5 t (ix6_1 j) = V m c main_v21 (wcol (((cfg0.win 6).blk t).view.emb j)) :=
  blk5_read t j (V m c main_v21)

/-- The entry the body leaves at `j` of the output block of point `t` is the blend of the six arrays at the place of
    the result array where that entry sits. -/
theorem entry_eq (c : Dev nD) (t : Fin cfg0.N) (j : S1x8x512x16.Idx) :
    out0_6 (iblk m c 0 t) (iblk m c 1 t) (iblk m c 2 t) (iblk m c 3 t) (iblk m c 4 t) (iblk m c 5 t) j
      = blend (V m c main_v33) (V m c main_v41) (V m c main_v49) (V m c main_v59) (V m c main_v24) (V m c main_v21)
          (((cfg0.win 6).blk t).view.emb j) := by
  refine (out_apply _ _ _ _ _ _ j).trans ?_
  rw [read0 m c t j, read1 m c t j, read2 m c t j, read3 m c t j, read4 m c t j, read5 m c t j]
  rfl

/-- WHAT POINT `t` WRITES BACK is block `t` of the blend of the six arrays as the region finds them. -/
theorem flushed_eq (c : Dev nD) (t : Fin cfg0.N) :
    (dats m 0 c).flushed 6 t = ((cfg0.win 6).blk t).view.read (Elt F)
      (blend (V m c main_v33) (V m c main_v41) (V m c main_v49) (V m c main_v59) (V m c main_v24) (V m c main_v21)) := by
  show (cfg0.win 6).cut (grid0.coords t) ((dats m 0 c).after 6 t) = _
  rw [after0_6]
  funext j
  exact (entry_eq m c t j).trans (blk6_read t j _).symm

/-- An entry of the array is in point `t`'s block iff each coordinate is in the block's range on its axis. -/
theorem mem_blk (t : Fin cfg0.N) (i : S8x512x512x16.Idx) :
    i ∈ ((cfg0.win 6).blk t).view.set ↔ ∀ a : Fin 4, win0_6.index t a * S1x8x512x16.size a ≤ (i a).val ∧ (i a).val < win0_6.index t a * S1x8x512x16.size a + S1x8x512x16.size a := by
  show i ∈ ((View.whole main_v60).slice (win0_6.rect t)).set ↔ _
  rw [View.set_slice_whole, Rect.mem_set_unit]
  exact Iff.rfl

/-- The blocks cover the array: entry (b, y, x, ch) lies in the block of point 64·b + y / 8. -/
theorem cover (i : S8x512x512x16.Idx) :
    ∃ t : Fin cfg0.N, (cfg0.win 6).flush t = true ∧ i ∈ ((cfg0.win 6).blk t).view.set := by
  have hi0 : (i 0).val < 8 := (i 0).isLt
  have hi1 : (i 1).val < 512 := (i 1).isLt
  have hi2 : (i 2).val < 512 := (i 2).isLt
  have hi3 : (i 3).val < 16 := (i 3).isLt
  have hN : grid0.N = 512 := N_0
  have hlt : (i 0).val * 64 + (i 1).val / 8 < grid0.N := by rw [hN]; omega
  refine ⟨⟨(i 0).val * 64 + (i 1).val / 8, hlt⟩, flush0_6 _, ?_⟩
  rw [mem_blk]
  obtain ⟨⟨o0, o1, o2, o3⟩, -⟩ := index_facts ⟨(i 0).val * 64 + (i 1).val / 8, hlt⟩
  have q0 : win0_6.index ⟨(i 0).val * 64 + (i 1).val / 8, hlt⟩ (0 : Fin 4) = ((i 0).val * 64 + (i 1).val / 8) / 64 := o0
  have q1 : win0_6.index ⟨(i 0).val * 64 + (i 1).val / 8, hlt⟩ (1 : Fin 4) = ((i 0).val * 64 + (i 1).val / 8) % 64 := o1
  intro a
  match a with
  | ⟨0, _⟩ => show win0_6.index ⟨(i 0).val * 64 + (i 1).val / 8, hlt⟩ (0 : Fin 4) * 1 ≤ (i 0).val ∧ (i 0).val < win0_6.index ⟨(i 0).val * 64 + (i 1).val / 8, hlt⟩ (0 : Fin 4) * 1 + 1; omega
  | ⟨1, _⟩ => show win0_6.index ⟨(i 0).val * 64 + (i 1).val / 8, hlt⟩ (1 : Fin 4) * 8 ≤ (i 1).val ∧ (i 1).val < win0_6.index ⟨(i 0).val * 64 + (i 1).val / 8, hlt⟩ (1 : Fin 4) * 8 + 8; omega
  | ⟨2, _⟩ => show win0_6.index ⟨(i 0).val * 64 + (i 1).val / 8, hlt⟩ (2 : Fin 4) * 512 ≤ (i 2).val ∧ (i 2).val < win0_6.index ⟨(i 0).val * 64 + (i 1).val / 8, hlt⟩ (2 : Fin 4) * 512 + 512; omega
  | ⟨3, _⟩ => show win0_6.index ⟨(i 0).val * 64 + (i 1).val / 8, hlt⟩ (3 : Fin 4) * 16 ≤ (i 3).val ∧ (i 3).val < win0_6.index ⟨(i 0).val * 64 + (i 1).val / 8, hlt⟩ (3 : Fin 4) * 16 + 16; omega

/-- THE ARRAY after the run: the blend of the six arrays as the region finds them. -/
theorem final (c : Dev nD) :
    (dats m 0 c).arrAt 6 cfg0.N
      = blend (V m c main_v33) (V m c main_v41) (V m c main_v49) (V m c main_v59) (V m c main_v24) (V m c main_v21) :=
  (dats m 0 c).arrAt_eq_of_cover 6 _ (fun t _ => flushed_eq m c t) cover

/-- The kernel's run, read: the result array ends at the blend of the six arrays the host operations before the region
    leave, the arguments unchanged. -/
theorem run : θ_run defs (onTc (τ := τ) (main (F := F))) ⟨m, fun _ => 0, ρ⟩ fun r => ∀ c : Dev nD,
      r.2.mem ((c : Thread nD τ).loc main_v60)
        = blend (V m c main_v33) (V m c main_v41) (V m c main_v49) (V m c main_v59) (V m c main_v24) (V m c main_v21)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.HostAgree.lean ====
/-
  The two programs share their host computation — the query points, the clipped floors and the two weight maps, the
  four flattened row indices and the four gathers — operation for operation; they differ only in where the last twelve
  operations, the blend itself, are carried out. This module joins them.

  `hblend` is the blend as the reference's host operations spell it: on whole arrays, the weight maps broadcast along
  the channel axis. Entry by entry it is `Bilinear.blend` (`hblend_eq_blend`): a broadcast along the channel axis read
  at (b, y, x, ch) is the weight map at (b, y, x, 0).

  `results_agree`: what the reference's 192 operations leave in its result buffer, from launch contents that agree with
  the kernel's on the two arguments, is `hblend` of the six arrays the kernel's 180 host operations leave for its region.
  Both sides are folds of operations over launch contents; each is rewritten, in one pass, to the operations' composed
  term of the arguments. The two composed terms are then the same term — the same operations on the same operands in
  the same order — and nothing of the shared computation is ever opened or evaluated.
-/
import proofs.«162366_j35158602285814_2_alg».proof.Proof.Gen.KernelIdeal.Frame
import proofs.«162366_j35158602285814_2_alg».proof.Proof.RefOps
import proofs.«162366_j35158602285814_2_alg».proof.Proof.Bilinear
import Idealize.ShloMosaic.Lib.Pipeline.Value

noncomputable section

namespace Cert.HostAgree

open Idealize.ShloMosaic Idealize.ShloMosaic.TcCoe Idealize.SL.Sem Idealize.ShloMosaic.StableHlo
open Cert.Bilinear (mix blend wcol)

variable {F : FTy → Type} [FloatOps F]

/-- The blend in the reference's host operations: whole-array sums, differences and products, each weight map
    broadcast along the channel axis. -/
def hblend (tl tr bl br : FVec F Cert.ReferenceIdeal.S8x512x512x16 .f32) (ax ay : FVec F Cert.ReferenceIdeal.S8x512x512x1 .f32) :
    FVec F Cert.ReferenceIdeal.S8x512x512x16 .f32 :=
  addf (addf tl (mulf (broadcastInDim Cert.ReferenceIdeal.S8x512x512x16 ![0, 1, 2, 3] Cert.ReferenceIdeal.Facts₀.bcast_S8x512x512x1_S8x512x512x16_0_1_2_3 ax) (subf tr tl)))
    (mulf (broadcastInDim Cert.ReferenceIdeal.S8x512x512x16 ![0, 1, 2, 3] Cert.ReferenceIdeal.Facts₀.bcast_S8x512x512x1_S8x512x512x16_0_1_2_3 ay)
      (subf (addf bl (mulf (broadcastInDim Cert.ReferenceIdeal.S8x512x512x16 ![0, 1, 2, 3] Cert.ReferenceIdeal.Facts₀.bcast_S8x512x512x1_S8x512x512x16_0_1_2_3 ax) (subf br bl)))
        (addf tl (mulf (broadcastInDim Cert.ReferenceIdeal.S8x512x512x16 ![0, 1, 2, 3] Cert.ReferenceIdeal.Facts₀.bcast_S8x512x512x1_S8x512x512x16_0_1_2_3 ax) (subf tr tl)))))

/-- A weight map broadcast along the channel axis, read at an image entry, is the weight map at the entry's pixel. -/
theorem bcast_channel (w : FVec F Cert.ReferenceIdeal.S8x512x512x1 .f32) (i : Cert.ReferenceIdeal.S8x512x512x16.Idx) :
    broadcastInDim Cert.ReferenceIdeal.S8x512x512x16 ![0, 1, 2, 3] Cert.ReferenceIdeal.Facts₀.bcast_S8x512x512x1_S8x512x512x16_0_1_2_3 w i = w (wcol i) :=
  broadcastInDim_apply _ Cert.ReferenceIdeal.Facts₀.bcast_S8x512x512x1_S8x512x512x16_0_1_2_3 w i (wcol i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show (i 2).val = if (512 : Nat) = 1 then 0 else (i 2).val; rw [if_neg (by decide)]
    | ⟨3, _⟩ => by show 0 = if (1 : Nat) = 1 then 0 else (i 3).val; rw [if_pos rfl])

/-- Entry by entry the host's blend is `Bilinear.blend`. -/
theorem hblend_eq_blend (tl tr bl br : FVec F Cert.ReferenceIdeal.S8x512x512x16 .f32) (ax ay : FVec F Cert.ReferenceIdeal.S8x512x512x1 .f32) :
    hblend tl tr bl br ax ay = blend tl tr bl br ax ay := by
  funext i
  show FloatOps.addf (FloatOps.addf (tl i) (FloatOps.mulf (broadcastInDim Cert.ReferenceIdeal.S8x512x512x16 ![0, 1, 2, 3] Cert.ReferenceIdeal.Facts₀.bcast_S8x512x512x1_S8x512x512x16_0_1_2_3 ax i) (FloatOps.subf (tr i) (tl i))))
      (FloatOps.mulf (broadcastInDim Cert.ReferenceIdeal.S8x512x512x16 ![0, 1, 2, 3] Cert.ReferenceIdeal.Facts₀.bcast_S8x512x512x1_S8x512x512x16_0_1_2_3 ay i)
        (FloatOps.subf (FloatOps.addf (bl i) (FloatOps.mulf (broadcastInDim Cert.ReferenceIdeal.S8x512x512x16 ![0, 1, 2, 3] Cert.ReferenceIdeal.Facts₀.bcast_S8x512x512x1_S8x512x512x16_0_1_2_3 ax i) (FloatOps.subf (br i) (bl i))))
          (FloatOps.addf (tl i) (FloatOps.mulf (broadcastInDim Cert.ReferenceIdeal.S8x512x512x16 ![0, 1, 2, 3] Cert.ReferenceIdeal.Facts₀.bcast_S8x512x512x1_S8x512x512x16_0_1_2_3 ax i) (FloatOps.subf (tr i) (tl i))))))
    = mix (tl i) (tr i) (bl i) (br i) (ax (wcol i)) (ay (wcol i))
  rw [bcast_channel ax i, bcast_channel ay i]
  rfl

/-- No operation of the reference writes its first argument. -/
theorem kept_arg0 (m' : (ℓ : Loc Cert.ReferenceIdeal.nD Cert.ReferenceIdeal.τ Cert.ReferenceIdeal.sig) → Buf (Elt F) ℓ) (c : Dev Cert.ReferenceIdeal.nD) :
    after (Cert.ReferenceIdeal.RunP.ops (F := F)) (launchContents m' c) (Proc.devRef .tc Cert.ReferenceIdeal.main_arg0)
      = m' ((c.tc : Thread Cert.ReferenceIdeal.nD Cert.ReferenceIdeal.τ).loc Cert.ReferenceIdeal.main_arg0) := by
  after_results_simp <;> rfl

/-- No operation of the reference writes its second argument. -/
theorem kept_arg1 (m' : (ℓ : Loc Cert.ReferenceIdeal.nD Cert.ReferenceIdeal.τ Cert.ReferenceIdeal.sig) → Buf (Elt F) ℓ) (c : Dev Cert.ReferenceIdeal.nD) :
    after (Cert.ReferenceIdeal.RunP.ops (F := F)) (launchContents m' c) (Proc.devRef .tc Cert.ReferenceIdeal.main_arg1)
      = m' ((c.tc : Thread Cert.ReferenceIdeal.nD Cert.ReferenceIdeal.τ).loc Cert.ReferenceIdeal.main_arg1) := by
  after_results_simp <;> rfl

end Cert.HostAgree

end
-- ==== Proof.LibFoldNormal.lean ====
/-
  Reading a fold of host operations down to its arguments: two rewriting facts that complete the library's one-pass
  normal form (`StableHlo.after_results_simp`).

  1. A `concatenate` of two pieces carries, after its list of pieces, a proof about the list's shapes; a rewriting pass
     therefore does not enter the list, and whatever the two pieces are stays unread. `cat2` is the same operation as a
     plain function of its two pieces (the proof now speaks of the two shapes only), and `concatenate_pair` presents a
     two-piece `concatenate` as `cat2`, whose operands a rewriting pass does reach.
  2. An operation inlined from a called function reads and writes its buffers through a transport along the buffer's
     type equation; a value written by one such operation and read by the next meets the two transports back to back,
     which cancel by Mathlib's `cast_cast` and `cast_eq`. (Nothing to state here: cite those two lemmas.)
-/
import Idealize.ShloMosaic.PureOps.ShapeOps

namespace Cert.FoldNormal

open Idealize.ShloMosaic

/-- The concatenation of two pieces along axis `a`, as a function of the two pieces. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece `concatenate` is `cat2` of its pieces. -/
theorem concatenate_pair {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.FoldNormal
-- ==== Proof.SharedHost.lean ====
/-
  The reference's result is the host's blend of the six arrays the kernel's region is launched on.

  Both programs are straight lines of host operations over their launch contents, and what a buffer holds after such a
  line is a fold of the operations' results. One rewriting pass turns each fold into the operations' composed term of
  the two arguments (Lib/StableHlo/Run.lean's result lemmas; `FoldNormal.concatenate_pair` so that the pass reaches the
  two pieces of the pixel grid's `concatenate`; `cast_cast` and `cast_eq` for the transports between the operations
  inlined from a called function), and rewrites the reference's arguments to the kernel's, which they agree with. The
  reference's 192 operations then read: the last twelve applied to the composed terms of the four gathered corner images
  and the two weight maps; the kernel's side reads: the same twelve operations (`HostAgree.hblend`) applied to the
  composed terms of the six arrays its 180 host operations leave. These are one and the same term, operation for
  operation, so the two sides are equal by reflexivity — no operation of the shared computation is opened.
-/
import proofs.«162366_j35158602285814_2_alg».proof.Proof.HostAgree
import proofs.«162366_j35158602285814_2_alg».proof.Proof.LibFoldNormal

noncomputable section

namespace Cert.HostAgree

open Idealize.ShloMosaic Idealize.ShloMosaic.TcCoe Idealize.SL.Sem Idealize.ShloMosaic.StableHlo

variable {F : FTy → Type} [FloatOps F]

set_option maxRecDepth 65536 in
set_option maxHeartbeats 400000000 in
/-- From launch contents that agree on the two arguments, the reference's result buffer ends at the host's blend of the
    four corner images and the two weight maps that the kernel's host operations leave for its region. -/
theorem results_agree (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    after (Cert.ReferenceIdeal.RunP.ops (F := F)) (launchContents m' c) (Proc.devRef .tc Cert.ReferenceIdeal.main_v71)
      = hblend (Cert.KernelIdeal.Gen.V m c Cert.KernelIdeal.main_v33) (Cert.KernelIdeal.Gen.V m c Cert.KernelIdeal.main_v41)
          (Cert.KernelIdeal.Gen.V m c Cert.KernelIdeal.main_v49) (Cert.KernelIdeal.Gen.V m c Cert.KernelIdeal.main_v59)
          (Cert.KernelIdeal.Gen.V m c Cert.KernelIdeal.main_v24) (Cert.KernelIdeal.Gen.V m c Cert.KernelIdeal.main_v21) := by
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  unfold hblend
  dsimp only [Cert.KernelIdeal.Gen.V]
  simp (disch := decide) only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, List.flatten_cons, List.flatten_nil, List.append_nil, List.cons_append, List.nil_append, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.FoldNormal.concatenate_pair, cast_cast, cast_eq, e0, e1]
  rfl

end Cert.HostAgree

end
-- ==== Proof.lean ====
/-
  The certificate of the dense image warp: a kernel that blends four gathered corner images by two per-pixel weight maps,
  block by block, against the reference that blends them on the host.

  Both programs compute the query points from the flow, the clipped floors and the two weight maps, the four flattened
  row indices and the four gathers with the same host operations. The kernel then runs one region over a grid of
  8 × 64 points, each blending one batch entry's eight rows; the reference applies the same twelve operations to the
  whole arrays. Entry by entry both are `Bilinear.blend`, in the same grouping of the same float operations, so the two
  results are equal at every float instance — in particular as extended reals — and no finiteness is used.

    * the kernel's frames are the generated frame certificates; the reference's frame is its run with the results dropped;
    * the idealized kernel is the kernel's own text (no rewrite was applied), so `preserves` asks nothing;
    * the kernel's result array is the blend of the six arrays its region is launched on (Proof/BlockBlend.lean), and the
      reference's result is the blend of the same six arrays (Proof/SharedHost.lean, Proof/HostAgree.lean).
-/
import proofs.«162366_j35158602285814_2_alg».proof.Defs
import proofs.«162366_j35158602285814_2_alg».proof.Proof.Gen.Kernel
import proofs.«162366_j35158602285814_2_alg».proof.Proof.Gen.Kernel.Frame
import proofs.«162366_j35158602285814_2_alg».proof.Proof.Gen.KernelIdeal
import proofs.«162366_j35158602285814_2_alg».proof.Proof.Gen.KernelIdeal.Frame
import proofs.«162366_j35158602285814_2_alg».proof.Proof.Gen.KernelIdeal.Value
import proofs.«162366_j35158602285814_2_alg».proof.Proof.Gen.ReferenceIdeal
import proofs.«162366_j35158602285814_2_alg».proof.Proof.Gen.Pre_finite_inputs
import proofs.«162366_j35158602285814_2_alg».proof.Proof.Bilinear
import proofs.«162366_j35158602285814_2_alg».proof.Proof.BlockBlend
import proofs.«162366_j35158602285814_2_alg».proof.Proof.RefOps
import proofs.«162366_j35158602285814_2_alg».proof.Proof.HostAgree
import proofs.«162366_j35158602285814_2_alg».proof.Proof.SharedHost
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference runs, and none of its operations writes an argument. -/
theorem frame_referenceIdeal : Cert.frame_ReferenceIdeal := fun m ρ _ =>
  (θ_run Cert.ReferenceIdeal.defs _ _).mono
    (fun r h c => ⟨(h c Cert.ReferenceIdeal.main_arg0).trans (Cert.HostAgree.kept_arg0 m c), (h c Cert.ReferenceIdeal.main_arg1).trans (Cert.HostAgree.kept_arg1 m c)⟩)
    (Cert.ReferenceIdeal.RunP.run (F := Ideal) m ρ)

/-- The idealization rewrote nothing: there is no conjunct to prove. -/
theorem preserves : Cert.preserves_Kernel_KernelIdeal := trivial

/-- The kernel's result array ends at the blend of the six arrays its host operations leave for the region; the
    reference's result buffer ends at the host's blend of the same six arrays, which is the same function entry by entry. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun r h c => ⟨(h c Cert.ReferenceIdeal.main_v71).trans ?_,
      (h c Cert.ReferenceIdeal.main_arg0).trans (Cert.HostAgree.kept_arg0 m' c), (h c Cert.ReferenceIdeal.main_arg1).trans (Cert.HostAgree.kept_arg1 m' c)⟩)
    (Cert.ReferenceIdeal.RunP.run (F := Ideal) m' ρ')
  exact (Cert.HostAgree.results_agree m m' c (hagree c).1 (hagree c).2).trans (Cert.HostAgree.hblend_eq_blend _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
